-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x16 : Shape := ⟨2, ![1600000, 16]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S1600000x16 .f32) (main_arg2 : IVec S2x1600000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S1600000x16 : Shape := ⟨2, ![1600000, 16]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 45
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000x16, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x1, .f32⟩
  | .hbm, ⟨44, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000x16 : Shape := ⟨2, ![1600000, 16]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 66
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x16, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000x1, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_call1_cst : Ref sig .tc := ⟨.hbm, 59, rfl⟩
abbrev main_call1_v0 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RefStages.lean ====
/-
  The reference program's value, one stage at a time, as functions of its argument arrays.

  With nodes r < 100000, edges t < 1600000, node features x(r, j), an edge list e (row 0 the sources, row 1 the destinations)
  and two dense layers (w1, b1), (w2, b2):
    deg(r)     = the number of edges whose destination is r, summed as ones;
    dis(r)     = 1 / sqrt(max(deg(r), 1e-30)) where deg(r) > 0, and 0 elsewhere;
    msg(t, j)  = x(s(t), j) · dis(s(t)), s(t) the source of edge t (a negative index wrapped by + 100000, then clamped into range);
    agg(r, j)  = the sum of msg(t, j) over the edges t whose destination is r;
    scaled     = agg(r, j) · dis(r);
    out        = relu(scaled · w1 + b1) · w2 + b2.
  Every stage is stated for any float instance, with the instance named at each stage, so that a comparison's operands
  (whose result is an integer vector) are determined.
-/
import proofs.«160959_j6665789243397_2_alg».proof.Proof.Gen.ReferenceIdeal

noncomputable section

namespace Cert.RefStages

open Cert.ReferenceIdeal Cert.ReferenceIdeal.Gen Idealize.ShloMosaic Idealize.ShloMosaic.TcCoe Idealize.SL.Sem

variable {F : FTy → Type} [FloatOps F]

/-- Row `a` of the edge list, as a vector over the edges. -/
def srcRow (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

def dstRow (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The destinations as a column of scatter indices. -/
def dstCol (e : (⟨S2x1600000, .i32⟩ : BufTy).Contents (Elt F)) : (⟨S1600000x1, .i32⟩ : BufTy).Contents (Elt F) :=
  broadcastInDim S1600000x1 ![0] bcast_S1600000_S1600000x1_0 (dstRow (F := F) e)

/-- The sources, a negative one wrapped by the number of nodes, as a column of gather indices. -/
def srcCol (e : (⟨S2x1600000, .i32⟩ : BufTy).Contents (Elt F)) : (⟨S1600000x1, .i32⟩ : BufTy).Contents (Elt F) :=
  broadcastInDim S1600000x1 ![0] bcast_S1600000_S1600000x1_0
    (select (cmpi .slt (srcRow (F := F) e) (broadcastInDim S1600000 ![] bcast_S_S1600000 (constantI S_ 32 0#32)))
      (addi (srcRow (F := F) e) (broadcastInDim S1600000 ![] bcast_S_S1600000 (constantI S_ 32 100000#32)))
      (srcRow (F := F) e))

/-- The in-degree of every node: ones summed at the destinations. -/
def deg (e : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant (F := F) S_ .f32 0x00000000#32))
    (dstCol (F := F) e)
    (broadcastInDim S1600000 ![] bcast_S_S1600000 (constant (F := F) S_ .f32 0x3F800000#32))

/-- The inverse square root of the degree, zero at a node of degree zero. -/
def dis (e : (⟨S2x1600000, .i32⟩ : BufTy).Contents (Elt F)) : (⟨S100000, .f32⟩ : BufTy).Contents (Elt F) :=
  select (cmpf .ogt (deg (F := F) e) (broadcastInDim S100000 ![] bcast_S_S100000 (constant (F := F) S_ .f32 0x00000000#32)))
    (Host.rsqrt (maximumf (deg (F := F) e) (broadcastInDim S100000 ![] bcast_S_S100000 (constant (F := F) S_ .f32 0x0DA24260#32))))
    (broadcastInDim S100000 ![] bcast_S_S100000 (constant (F := F) S_ .f32 0x00000000#32))

/-- The degree factor of every node spread along the feature axis. -/
def disMat (e : (⟨S2x1600000, .i32⟩ : BufTy).Contents (Elt F)) : (⟨S100000x128, .f32⟩ : BufTy).Contents (Elt F) :=
  broadcastInDim S100000x128 ![0, 1] bcast_S100000x1_S100000x128_0_1
    (broadcastInDim S100000x1 ![0] bcast_S100000_S100000x1_0 (dis (F := F) e))

/-- The message of every edge: its source's features times its source's degree factor. -/
def msg (x : (⟨S100000x128, .f32⟩ : BufTy).Contents (Elt F)) (e : (⟨S2x1600000, .i32⟩ : BufTy).Contents (Elt F)) :
    (⟨S1600000x128, .f32⟩ : BufTy).Contents (Elt F) :=
  mulf (Host.gather gather_S100000x128_S1600000x1_S1600000x128_1_0_n_n_0_1_1128 x (srcCol (F := F) e))
    (broadcastInDim S1600000x128 ![0, 1] bcast_S1600000x1_S1600000x128_0_1
      (broadcastInDim S1600000x1 ![0] bcast_S1600000_S1600000x1_0
        (Host.gather gather_S100000_S1600000x1_S1600000_n_0_n_n_0_1_1 (dis (F := F) e) (srcCol (F := F) e))))

/-- The messages summed at their destinations. -/
def aggOf (e : (⟨S2x1600000, .i32⟩ : BufTy).Contents (Elt F)) (u : (⟨S1600000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (dstCol (F := F) e) u

def agg (x : (⟨S100000x128, .f32⟩ : BufTy).Contents (Elt F)) (e : (⟨S2x1600000, .i32⟩ : BufTy).Contents (Elt F)) :
    (⟨S100000x128, .f32⟩ : BufTy).Contents (Elt F) :=
  aggOf (F := F) e (msg (F := F) x e)

/-- The aggregate of every node times its degree factor: the dense layers' input. -/
def scaled (x : (⟨S100000x128, .f32⟩ : BufTy).Contents (Elt F)) (e : (⟨S2x1600000, .i32⟩ : BufTy).Contents (Elt F)) :
    (⟨S100000x128, .f32⟩ : BufTy).Contents (Elt F) :=
  mulf (agg (F := F) x e) (disMat (F := F) e)

/-- A bias vector spread over the nodes. -/
def biasMat (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- The two dense layers of an input y: relu(y · w1 + b1) · w2 + b2. -/
def mlp (y : (⟨S100000x128, .f32⟩ : BufTy).Contents (Elt F)) (w1 : (⟨S128x128, .f32⟩ : BufTy).Contents (Elt F))
    (b1 : (⟨S128, .f32⟩ : BufTy).Contents (Elt F)) (w2 : (⟨S128x128, .f32⟩ : BufTy).Contents (Elt F))
    (b2 : (⟨S128, .f32⟩ : BufTy).Contents (Elt F)) : (⟨S100000x128, .f32⟩ : BufTy).Contents (Elt F) :=
  addf (Host.dotGeneral dot_S100000x128_S128x128_S100000x128_1_0_0_1_n_n none
      (maximumf (addf (Host.dotGeneral dot_S100000x128_S128x128_S100000x128_1_0_0_1_n_n none y w1) (biasMat (F := F) b1))
        (broadcastInDim S100000x128 ![] bcast_S_S100000x128 (constant (F := F) S_ .f32 0x00000000#32)))
      w2)
    (biasMat (F := F) b2)

/-- The reference's first result, as one function of its argument arrays. -/
def out (x : (⟨S100000x128, .f32⟩ : BufTy).Contents (Elt F)) (e : (⟨S2x1600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) :
    (⟨S100000x128, .f32⟩ : BufTy).Contents (Elt F) :=
  mlp (F := F) (scaled (F := F) x e) w1 b1 w2 b2

end Cert.RefStages

end
-- ==== Proof.RefRun.lean ====
/-
  The reference program's run, read back.

  The program is a straight line of 59 host operations on buffers of their own; every weakly fair execution of it
  terminates, writes each operation's value into that operation's buffer and leaves the arguments as they were. Composing
  the operations' values along the line, the buffer of the last sum holds `RefStages.out` of the argument arrays: the
  stages of that definition are the operations' values in program order (the same index column computed twice in the
  program is one stage here, the two computations being the same function of the edge list).
-/
import proofs.«160959_j6665789243397_2_alg».proof.Proof.Gen.ReferenceIdeal
import proofs.«160959_j6665789243397_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 59 host operations, in order; the operations of the two functions it calls (the selection of the degree factor, and relu) stand at the place of their calls. -/
abbrev ops : List (HloOp τ sig (Elt F)) :=
  [ unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x0DA24260#32),
    unary main_cst_2 main_v10 (broadcastInDim S100000 ![] bcast_S_S100000 : (⟨S_, .f32⟩ : BufTy).Contents (Elt F) → (⟨S100000, .f32⟩ : BufTy).Contents (Elt F)),
    binary main_v7 main_v10 main_v11 (maximumf : (⟨S100000, .f32⟩ : BufTy).Contents (Elt F) → (⟨S100000, .f32⟩ : BufTy).Contents (Elt F) → (⟨S100000, .f32⟩ : BufTy).Contents (Elt F)),
    unary main_v11 main_v12 (Host.rsqrt : (⟨S100000, .f32⟩ : BufTy).Contents (Elt F) → (⟨S100000, .f32⟩ : BufTy).Contents (Elt F)),
    nullary main_cst_3 (constant S_ .f32 0x00000000#32),
    unary main_cst_3 main_v13 (broadcastInDim S100000 ![] bcast_S_S100000 : (⟨S_, .f32⟩ : BufTy).Contents (Elt F) → (⟨S100000, .f32⟩ : BufTy).Contents (Elt F)),
    TRef.ternary (TRef.of (T := ⟨S100000, .i1⟩) main_v9) (TRef.of (T := ⟨S100000, .f32⟩) main_v12) (TRef.of (T := ⟨S100000, .f32⟩) main_v13) (TRef.of (T := ⟨S100000, .f32⟩) main_v14) select,
    nullary main_c (constantI S_ 32 0#32),
    unary main_c main_v15 (broadcastInDim S1600000 ![] bcast_S_S1600000 : (⟨S_, .i32⟩ : BufTy).Contents (Elt F) → (⟨S1600000, .i32⟩ : BufTy).Contents (Elt F)),
    binary main_v1 main_v15 main_v16 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v17 (broadcastInDim S1600000 ![] bcast_S_S1600000 : (⟨S_, .i32⟩ : BufTy).Contents (Elt F) → (⟨S1600000, .i32⟩ : BufTy).Contents (Elt F)),
    binary main_v1 main_v17 main_v18 (addi : (⟨S1600000, .i32⟩ : BufTy).Contents (Elt F) → (⟨S1600000, .i32⟩ : BufTy).Contents (Elt F) → (⟨S1600000, .i32⟩ : BufTy).Contents (Elt F)),
    ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v19 main_v20 (broadcastInDim S1600000x1 ![0] bcast_S1600000_S1600000x1_0 : (⟨S1600000, .i32⟩ : BufTy).Contents (Elt F) → (⟨S1600000x1, .i32⟩ : BufTy).Contents (Elt F)),
    binary main_arg0 main_v20 main_v21 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_c_5 (constantI S_ 32 0#32),
    unary main_c_5 main_v22 (broadcastInDim S1600000 ![] bcast_S_S1600000 : (⟨S_, .i32⟩ : BufTy).Contents (Elt F) → (⟨S1600000, .i32⟩ : BufTy).Contents (Elt F)),
    binary main_v1 main_v22 main_v23 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v24 (broadcastInDim S1600000 ![] bcast_S_S1600000 : (⟨S_, .i32⟩ : BufTy).Contents (Elt F) → (⟨S1600000, .i32⟩ : BufTy).Contents (Elt F)),
    binary main_v1 main_v24 main_v25 (addi : (⟨S1600000, .i32⟩ : BufTy).Contents (Elt F) → (⟨S1600000, .i32⟩ : BufTy).Contents (Elt F) → (⟨S1600000, .i32⟩ : BufTy).Contents (Elt F)),
    ternary main_v23 main_v25 main_v1 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v26 main_v27 (broadcastInDim S1600000x1 ![0] bcast_S1600000_S1600000x1_0 : (⟨S1600000, .i32⟩ : BufTy).Contents (Elt F) → (⟨S1600000x1, .i32⟩ : BufTy).Contents (Elt F)),
    binary main_v14 main_v27 main_v28 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    unary main_v28 main_v29 (broadcastInDim S1600000x1 ![0] bcast_S1600000_S1600000x1_0 : (⟨S1600000, .f32⟩ : BufTy).Contents (Elt F) → (⟨S1600000x1, .f32⟩ : BufTy).Contents (Elt F)),
    unary main_v29 main_v30 (broadcastInDim S1600000x128 ![0, 1] bcast_S1600000x1_S1600000x128_0_1 : (⟨S1600000x1, .f32⟩ : BufTy).Contents (Elt F) → (⟨S1600000x128, .f32⟩ : BufTy).Contents (Elt F)),
    binary main_v21 main_v30 main_v31 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v32 (broadcastInDim S100000x128 ![] bcast_S_S100000x128 : (⟨S_, .f32⟩ : BufTy).Contents (Elt F) → (⟨S100000x128, .f32⟩ : BufTy).Contents (Elt F)),
    unary main_v3 main_v33 (broadcastInDim S1600000x1 ![0] bcast_S1600000_S1600000x1_0 : (⟨S1600000, .i32⟩ : BufTy).Contents (Elt F) → (⟨S1600000x1, .i32⟩ : BufTy).Contents (Elt F)),
    ternary main_v32 main_v33 main_v31 main_v34 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v14 main_v35 (broadcastInDim S100000x1 ![0] bcast_S100000_S100000x1_0 : (⟨S100000, .f32⟩ : BufTy).Contents (Elt F) → (⟨S100000x1, .f32⟩ : BufTy).Contents (Elt F)),
    unary main_v35 main_v36 (broadcastInDim S100000x128 ![0, 1] bcast_S100000x1_S100000x128_0_1 : (⟨S100000x1, .f32⟩ : BufTy).Contents (Elt F) → (⟨S100000x128, .f32⟩ : BufTy).Contents (Elt F)),
    binary main_v34 main_v36 main_v37 (mulf : (⟨S100000x128, .f32⟩ : BufTy).Contents (Elt F) → (⟨S100000x128, .f32⟩ : BufTy).Contents (Elt F) → (⟨S100000x128, .f32⟩ : BufTy).Contents (Elt F)),
    binary main_v37 main_arg3 main_v38 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v38 main_v40 main_v41 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v41) (TRef.of (T := ⟨S100000x128, .f32⟩) main_call1_v0) (TRef.of (T := ⟨S100000x128, .f32⟩) main_v42) maximumf,
    binary main_v42 main_arg5 main_v43 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
set_option maxHeartbeats 2000000 in
/-- On every device, for any float values, from any memory with zero counters: every weakly fair execution of the
    program terminates with its first result at `RefStages.out` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
          = Cert.RefStages.out (F := F) (m ((c.tc : Thread nD τ).loc main_arg0)) (m ((c.tc : Thread nD τ).loc main_arg2))
              (m ((c.tc : Thread nD τ).loc main_arg3)) (m ((c.tc : Thread nD τ).loc main_arg4))
              (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v46).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.RefRun

end
-- ==== Proof.LibGatherRows.lean ====
/-
  Looking whole rows of a matrix up at a column of indices, read at one position.

  `x[idx]` for a matrix `x : [N, D]` and an integer vector `idx : [R]` is lowered to a gather whose start indices are the
  vector written as a column `[R, 1]` (the index vector lies along axis 1), with the operand's row axis collapsed, its
  column axis the result's offset axis, and a slice of one whole row. Result entry `(t, j)` is `x` at the row
  `idx[t, 0]` — read as a signed integer and clamped into `[0, N - 1]`, as the gather clamps every start index — and at
  the column `j`. This is the rank-2 companion of the library's reading of a gather of a flat array
  (`ValueIdx.gather_take_apply`), proved the same way, one operand axis at a time.
-/
import Idealize.ShloMosaic.Lib.ValueIdx

noncomputable section

namespace Cert.LibGatherRows

open Idealize.ShloMosaic Idealize.ShloMosaic.ValueIdx

variable {α : Type}

/-- The dimension numbers of that gather for an operand `[N, D]`, start indices `[R, 1]` and a result `[R, D]`. -/
abbrev rowDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The start-indices position `[t, 0]` of result position `(t, j)`. -/
abbrev rowIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- The gather read at `(t, j)`: the operand at the row `idx[t, 0]`, read signed and clamped into `[0, N - 1]`, and at
    the column `j`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowDims N D R wf) x idx y
      = x (ix2 ⟨min (idx (rowIdx y)).toInt.toNat (N - 1), by omega⟩ ⟨(y 1).val, idx2_lt1 y⟩) := by
  unfold Host.gather
  congr 1
  funext a
  refine Fin.ext ?_
  match a with
  | ⟨0, _⟩ =>
    show (rowDims N D R wf).start y idx 0 + (rowDims N D R wf).batchCoord y 0 + (rowDims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx y ⟨List.idxOf (0 : Fin 2) (rowDims N D R wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowDims N D R wf).start y idx 1 + (rowDims N D R wf).batchCoord y 1 + (rowDims N D R wf).offCoord y 1 = (y 1).val
    have h1 : (1 : Fin 2) ∉ (rowDims N D R wf).startIndexMap := show (1 : Fin 2) ∉ [(0 : Fin 2)] from by decide
    have hk : (1 : Fin 2) ∈ (rowDims N D R wf).sKept :=
      (GatherDims.mem_sKept _ _).mpr ⟨show (1 : Fin 2) ∉ [(0 : Fin 2)] from by decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Cert.LibGatherRows

end
-- ==== Proof.LibGatherColumn.lean ====
/-
  Looking entries of a flat array up at a column of indices, read at one position.

  `x[idx]` for a flat array `x : [N]` and an integer vector `idx : [R]` is lowered to a gather whose start indices are the
  vector written as a column `[R, 1]` (the index vector lies along axis 1), with the operand's one axis collapsed and a
  slice of one entry. Result entry `t` is `x` at the start index `idx[t, 0]`, read as a signed integer and clamped
  into `[0, N - 1]`, as the gather clamps every start index. This is the rank-1 companion of the library's reading of a
  gather at a rank-2 array of start indices (`ValueIdx.gather_take_apply`), proved the same way.
-/
import Idealize.ShloMosaic.Lib.ValueIdx

noncomputable section

namespace Cert.LibGatherColumn

open Idealize.ShloMosaic Idealize.ShloMosaic.ValueIdx

variable {α : Type}

/-- The dimension numbers of that gather for an operand `[N]`, start indices `[R, 1]` and a result `[R]`. -/
abbrev colDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The start-indices position `[t, 0]` of result position `t`. -/
abbrev colIdx {R : Nat} (y : (⟨1, ![R]⟩ : Shape).Idx) : (⟨2, ![R, 1]⟩ : Shape).Idx :=
  fun a => match a with | ⟨0, _⟩ => ⟨(y 0).val, (y 0).isLt⟩ | ⟨1, _⟩ => ⟨0, Nat.one_pos⟩

/-- The gather read at `t`: the operand at the start index `idx[t, 0]`, read signed and clamped into `[0, N - 1]`. -/
theorem gather_col_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (colDims N R wf) x idx y = x (ix1 ⟨min (idx (colIdx y)).toInt.toNat (N - 1), by omega⟩) := by
  unfold Host.gather
  congr 1
  funext a
  obtain rfl : a = 0 := Subsingleton.elim _ _
  refine Fin.ext ?_
  show (colDims N R wf).start y idx 0 + (colDims N R wf).batchCoord y 0 + (colDims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N R wf).startIndexMap from List.mem_singleton.mpr rfl)]
  have hsi : (colDims N R wf).siIdx y ⟨List.idxOf (0 : Fin 1) (colDims N R wf).startIndexMap,
      List.idxOf_lt_length_iff.2 (List.mem_singleton.mpr rfl)⟩ = colIdx y := by
    funext b; refine Fin.ext ?_
    match b with
    | ⟨0, _⟩ => rfl
    | ⟨1, _⟩ => rfl
  rw [hsi]
  rfl

end Cert.LibGatherColumn

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.Messages.lean ====
/-
  The messages, edge by edge: looking the scaled features up is scaling the looked-up features.

  Both programs look rows of a node table up at the edges' sources. The source of edge t is the same node in every such
  lookup: the index entry of t, read as a signed integer and clamped into the node range [0, 99999] — for a lookup of whole
  feature rows (the row axis has 100000 entries and a slice is one row) and for a lookup of single entries of a vector over
  the nodes alike. So
    (x · dis)[src](t, j) = x(s(t), j) · dis(s(t)) = x[src](t, j) · dis[src](t):
  the lookup of the table scaled row by row is the looked-up table scaled by the looked-up factors, entry by entry, for any
  float values and with no law of arithmetic used — the two sides are the same product.
-/
import proofs.«160959_j6665789243397_2_alg».proof.Proof.RefStages
import proofs.«160959_j6665789243397_2_alg».proof.Proof.LibGatherRows
import proofs.«160959_j6665789243397_2_alg».proof.Proof.LibGatherColumn
import proofs.«160959_j6665789243397_2_alg».proof.Proof.LibHostBroadcast

noncomputable section

namespace Cert.RefStages

open Cert.ReferenceIdeal Cert.ReferenceIdeal.Gen Idealize.ShloMosaic Idealize.ShloMosaic.TcCoe Idealize.SL.Sem
open Idealize.ShloMosaic.ValueIdx

variable {F : FTy → Type} [FloatOps F]

/-- The source node of edge `t`: its index entry, read signed and clamped into the node range. -/
def srcNode (e : (⟨S2x1600000, .i32⟩ : BufTy).Contents (Elt F)) (t : Fin 1600000) : Fin 100000 :=
  ⟨min ((srcCol (F := F) e) (ix2 t (0 : Fin 1))).toInt.toNat (100000 - 1), by omega⟩

/-- A lookup of feature rows at the sources reads, at `(t, j)`, the table at the source node of `t` and the column `j`. -/
theorem rows_at_src {α : Type} (X : S100000x128.Idx → α) (e : (⟨S2x1600000, .i32⟩ : BufTy).Contents (Elt F))
    (t : Fin 1600000) (j : Fin 128) :
    Host.gather gather_S100000x128_S1600000x1_S1600000x128_1_0_n_n_0_1_1128 X (srcCol (F := F) e) (ix2 t j)
      = X (ix2 (srcNode (F := F) e t) j) :=
  (Cert.LibGatherRows.gather_rows_apply (N := 100000) (D := 128) (R := 1600000) (by decide)
      gather_S100000x128_S1600000x1_S1600000x128_1_0_n_n_0_1_1128_wf X (srcCol (F := F) e) (ix2 t j)).trans
    (congrArg X (funext fun a => Fin.ext (by
      match a with
      | ⟨0, _⟩ => rfl
      | ⟨1, _⟩ => rfl)))

/-- A lookup of a node vector's entries at the sources reads, at `t`, the vector at the source node of `t`. -/
theorem entries_at_src {α : Type} (d : S100000.Idx → α) (e : (⟨S2x1600000, .i32⟩ : BufTy).Contents (Elt F)) (t : Fin 1600000) :
    Host.gather gather_S100000_S1600000x1_S1600000_n_0_n_n_0_1_1 d (srcCol (F := F) e) (ix1 t)
      = d (ix1 (srcNode (F := F) e t)) :=
  (Cert.LibGatherColumn.gather_col_apply (N := 100000) (R := 1600000) (by decide)
      gather_S100000_S1600000x1_S1600000_n_0_n_n_0_1_1_wf d (srcCol (F := F) e) (ix1 t)).trans
    (congrArg d (funext fun a => Fin.ext (by
      match a with
      | ⟨0, _⟩ => rfl)))

/-- The degree factor spread along the features reads, at `(r, j)`, the factor of node `r`. -/
theorem disMat_apply (e : (⟨S2x1600000, .i32⟩ : BufTy).Contents (Elt F)) (r : Fin 100000) (j : Fin 128) :
    disMat (F := F) e (ix2 r j) = dis (F := F) e (ix1 r) :=
  Cert.LibHostBroadcast.vec_along_rows (dis (F := F) e) bcast_S100000_S100000x1_0 bcast_S100000x1_S100000x128_0_1 r j

/-- The looked-up degree factors of the edges' sources, spread along the features. -/
def srcFactor (e : (⟨S2x1600000, .i32⟩ : BufTy).Contents (Elt F)) : (⟨S1600000x128, .f32⟩ : BufTy).Contents (Elt F) :=
  broadcastInDim S1600000x128 ![0, 1] bcast_S1600000x1_S1600000x128_0_1
    (broadcastInDim S1600000x1 ![0] bcast_S1600000_S1600000x1_0
      (Host.gather gather_S100000_S1600000x1_S1600000_n_0_n_n_0_1_1 (dis (F := F) e) (srcCol (F := F) e)))

/-- It reads, at `(t, j)`, the degree factor of the source node of `t`. -/
theorem srcFactor_apply (e : (⟨S2x1600000, .i32⟩ : BufTy).Contents (Elt F)) (t : Fin 1600000) (j : Fin 128) :
    srcFactor (F := F) e (ix2 t j) = dis (F := F) e (ix1 (srcNode (F := F) e t)) :=
  (Cert.LibHostBroadcast.vec_along_rows
      (Host.gather gather_S100000_S1600000x1_S1600000_n_0_n_n_0_1_1 (dis (F := F) e) (srcCol (F := F) e))
      bcast_S1600000_S1600000x1_0 bcast_S1600000x1_S1600000x128_0_1 t j).trans
    (entries_at_src (F := F) (dis (F := F) e) e t)

/-- The messages the other way round: the features of every node scaled by its degree factor first, then looked up at the
    edges' sources. -/
def msgPre (x : (⟨S100000x128, .f32⟩ : BufTy).Contents (Elt F)) (e : (⟨S2x1600000, .i32⟩ : BufTy).Contents (Elt F)) :
    (⟨S1600000x128, .f32⟩ : BufTy).Contents (Elt F) :=
  Host.gather gather_S100000x128_S1600000x1_S1600000x128_1_0_n_n_0_1_1128 (mulf x (disMat (F := F) e)) (srcCol (F := F) e)

/-- Scaling then looking up is looking up then scaling: both are x(s(t), j) · dis(s(t)) at `(t, j)`. -/
theorem msgPre_eq_msg (x : (⟨S100000x128, .f32⟩ : BufTy).Contents (Elt F)) (e : (⟨S2x1600000, .i32⟩ : BufTy).Contents (Elt F)) :
    msgPre (F := F) x e = msg (F := F) x e := by
  funext y
  obtain ⟨t, j, rfl⟩ : ∃ (t : Fin 1600000) (j : Fin 128), y = ix2 t j := ⟨y 0, y 1, eq_ix2 y⟩
  calc msgPre (F := F) x e (ix2 t j)
      = (mulf x (disMat (F := F) e)) (ix2 (srcNode (F := F) e t) j) := rows_at_src (F := F) _ e t j
    _ = FloatOps.mulf (x (ix2 (srcNode (F := F) e t) j)) (dis (F := F) e (ix1 (srcNode (F := F) e t))) :=
        congrArg (FloatOps.mulf (x (ix2 (srcNode (F := F) e t) j))) (disMat_apply (F := F) e _ j)
    _ = FloatOps.mulf (Host.gather gather_S100000x128_S1600000x1_S1600000x128_1_0_n_n_0_1_1128 x (srcCol (F := F) e) (ix2 t j))
          (srcFactor (F := F) e (ix2 t j)) := by
        rw [rows_at_src (F := F) x e t j, srcFactor_apply (F := F) e t j]
    _ = msg (F := F) x e (ix2 t j) := rfl

end Cert.RefStages

end
-- ==== Proof.KernelHost.lean ====
/-
  What the kernel's region finds in the two arrays the host computed.

  Before the region the kernel's host program computes, from the edge list and the node features alone,
    the degree factor of every node, reshaped to a column [100000, 1], and
    the aggregate: the features pre-scaled by the degree factor, looked up at the edges' sources, summed at the destinations.
  Both are the reference's stages of the same arguments: the column is the reference's degree factor reshaped, and the
  aggregate is the reference's aggregate, because looking the scaled features up is scaling the looked-up features
  (`RefStages.msgPre_eq_msg`). The two programs' dimension records are the same lists of axes.
-/
import proofs.«160959_j6665789243397_2_alg».proof.Proof.Gen.KernelIdeal.Frame
import proofs.«160959_j6665789243397_2_alg».proof.Proof.Messages
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 8192 in
set_option maxHeartbeats 2000000 in
/-- The degree-factor column the region finds is the reference's degree factor of the edge list, reshaped to a column. -/
theorem V_dis (c : Dev nD) :
    V m c main_v28
      = shapeCast S100000x1 (Cert.RefStages.dis (F := F) (m ((c : Thread nD τ).loc main_arg2))) shapeCasts_S100000_S100000x1 := by
  dsimp only [V]
  simp only [hostOps0, hostOps0_1, hostOps0_2, List.flatten_cons, List.flatten_nil, List.append_nil, List.cons_append, List.nil_append]
  after_results_simp <;> rfl

set_option maxRecDepth 8192 in
set_option maxHeartbeats 2000000 in
/-- The aggregate the region finds: the pre-scaled features looked up at the sources and summed at the destinations. -/
theorem V_agg_pre (c : Dev nD) :
    V m c main_v27
      = Cert.RefStages.aggOf (F := F) (m ((c : Thread nD τ).loc main_arg2))
          (Cert.RefStages.msgPre (F := F) (m ((c : Thread nD τ).loc main_arg0)) (m ((c : Thread nD τ).loc main_arg2))) := by
  dsimp only [V]
  simp only [hostOps0, hostOps0_1, hostOps0_2, List.flatten_cons, List.flatten_nil, List.append_nil, List.cons_append, List.nil_append]
  after_results_simp <;> rfl

/-- So it is the reference's aggregate of the same features and edge list. -/
theorem V_agg (c : Dev nD) :
    V m c main_v27
      = Cert.RefStages.agg (F := F) (m ((c : Thread nD τ).loc main_arg0)) (m ((c : Thread nD τ).loc main_arg2)) := by
  rw [V_agg_pre, Cert.RefStages.msgPre_eq_msg]
  rfl

end Cert.KernelIdeal.HostSide

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.DenseSpec.lean ====
/-
  Two dense layers of one row, on the extended reals.

  For a row y of 128 features, weights w1, w2 (128 × 128) and biases b1, b2 (128):
    hidden unit k :  max (Σ_j y(j) · w1(j, k) + b1(k)) 0,
    output q      :  Σ_k hidden(k) · w2(k, q) + b2(q).
  An output row depends on the input only through the same row: a program that computes the layers on blocks of rows and
  one that computes them on the whole array give the same rows.
-/
import Idealize.ShloMosaic.PureOps.Ideal
import Idealize.ShloMosaic.Lib.ValueIdx

noncomputable section

namespace Cert.Dense

open Idealize.ShloMosaic Idealize.ShloMosaic.ValueIdx

/-- Hidden unit `k` of the row `y`. -/
def hiddenAt (y : Fin 128 → EReal) (w1 : (⟨2, ![128, 128]⟩ : Shape).Idx → EReal) (b1 : (⟨1, ![128]⟩ : Shape).Idx → EReal)
    (k : Fin 128) : EReal :=
  max (∑ j : Fin 128, y j * w1 (ix2 j k) + b1 (ix1 k)) 0

/-- Output `q` of the row `y`. -/
def outAt (y : Fin 128 → EReal) (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal) (q : Fin 128) : EReal :=
  ∑ k : Fin 128, hiddenAt y w1 b1 k * w2 (ix2 k q) + b2 (ix1 q)

end Cert.Dense

end
-- ==== Proof.DenseKernel.lean ====
/-
  The kernel body's value, read at one position.

  On a block of 5000 rows the body scales row p of the aggregate block by the p-th entry of the degree-factor column,
  multiplies by the first weight matrix (both operands narrowed to a 16-bit float format first: the identity at the ideal
  values) into a zero accumulator, adds the first bias as a row spread over the block, takes the maximum with a splat 0,
  multiplies by the second weight matrix and adds the second bias. At the ideal values each matrix product is the plain
  sum over the contracted axis, so row p of the body's value is `Dense.outAt` of the scaled row p of the block.
-/
import proofs.«160959_j6665789243397_2_alg».proof.Proof.Gen.KernelIdeal.Skeleton
import proofs.«160959_j6665789243397_2_alg».proof.Proof.LibPlainDot
import proofs.«160959_j6665789243397_2_alg».proof.Proof.LibColumn
import proofs.«160959_j6665789243397_2_alg».proof.Proof.DenseSpec
import Idealize.ShloMosaic.PureOps.Ideal.Laws
import Idealize.ShloMosaic.Lib.ValueLayout
import Idealize.ShloMosaic.Lib.Pipeline.Value

noncomputable section

namespace Cert.KernelIdeal.DenseBody

open Cert.KernelIdeal Cert.KernelIdeal.Gen Idealize.ShloMosaic Idealize.ShloMosaic.ValueIdx

/-- The matrix unit's product of a block with a weight matrix into a zero accumulator, at `(a, c)`: the sum over the features. -/
theorem matmul_block (l : FVec Ideal S5000x128 .bf16) (w : FVec Ideal S128x128 .bf16) (a : Fin 5000) (c : Fin 128) :
    matmul (F := Ideal) dot_S5000x128_S128x128_S5000x128_1_0_0_1_n_n none l w (constant S5000x128 .f32 0x00000000#32) (ix2 a c)
      = ∑ k : Fin 128, l (ix2 a k) * w (ix2 k c) :=
  Cert.LibPlainDot.matmul_plain 5000 128 128 none l w (ix2 a c)

/-- A bias vector made a row and spread over the block reads, at `(p, c)`, its entry `c`. -/
theorem bias_block (b : FVec Ideal S128 .f32) (h1 : S128.ShapeCasts S1x128) (h2 : S1x128.Broadcasts S5000x128) (p : Fin 5000) (c : Fin 128) :
    broadcastTo S5000x128 (shapeCast S1x128 b h1) h2 (ix2 p c) = b (ix1 c) :=
  (broadcastTo_1b_ab_apply (shapeCast S1x128 b h1) h2 p c).trans (shapeCast_a_1a_apply b h1 0 c)

/-- The degree-factor column spread along the features reads, at `(p, c)`, its entry `p`. -/
theorem factor_block (d : FVec Ideal S5000x1 .f32) (h1 : S5000x1.ShapeCasts S5000x1) (h2 : S5000x1.Broadcasts S5000x128)
    (p : Fin 5000) (c : Fin 128) :
    broadcastTo S5000x128 (shapeCast S5000x1 d h1) h2 (ix2 p c) = d (ix2 p (0 : Fin 1)) := by
  rw [shapeCast_self]
  exact Cert.LibColumn.broadcastTo_a1_ab_apply d h2 p c

/-- The splat zero word is the real 0. -/
theorem zero_word : (Scalar.ofBits (F := Ideal) .f32 0x00000000#32 : EReal) = 0 := Ideal.ofBits_zero_f32

/-- Row `p` of the body's value is the row-wise specification of row `p` of the aggregate block scaled by the p-th degree factor. -/
theorem pay_apply (x0 : Vec Ideal S5000x128 .f32) (x1 : Vec Ideal S5000x1 .f32) (w1 : Vec Ideal S128x128 .f32)
    (b1 : Vec Ideal S128 .f32) (w2 : Vec Ideal S128x128 .f32) (b2 : Vec Ideal S128 .f32) (p : Fin 5000) (q : Fin 128) :
    k0_pay1 (F := Ideal) x0 x1 w1 b1 w2 b2 (ix2 p q)
      = Cert.Dense.outAt (fun j => x0 (ix2 p j) * x1 (ix2 p (0 : Fin 1))) w1 b1 w2 b2 q := by
  unfold k0_pay1 Cert.Dense.outAt Cert.Dense.hiddenAt
  dsimp only
  rw [addf_apply, matmul_block, bias_block]
  refine congrArg (· + b2 (ix1 q)) (Finset.sum_congr rfl fun k _ => ?_)
  rw [truncf_apply, truncf_apply, maximumf_apply, addf_apply, matmul_block, bias_block, broadcast_apply, zero_word]
  refine congrArg (fun s => max (s + b1 (ix1 k)) 0 * w2 (ix2 k q)) (Finset.sum_congr rfl fun j _ => ?_)
  rw [truncf_apply, truncf_apply, mulf_apply, shapeCast_self, factor_block]

end Cert.KernelIdeal.DenseBody

end
-- ==== Proof.DenseRef.lean ====
/-
  The reference's two dense layers, read at one position.

  At the ideal values the host's matrix product is the plain sum over the contracted axis, a bias vector spread over the
  rows reads its entry of the column, and the zero the maximum is taken with is the real 0: row r of the layers' result is
  `Dense.outAt` of row r of their input.
-/
import proofs.«160959_j6665789243397_2_alg».proof.Proof.RefStages
import proofs.«160959_j6665789243397_2_alg».proof.Proof.LibPlainDot
import proofs.«160959_j6665789243397_2_alg».proof.Proof.LibHostBroadcast
import proofs.«160959_j6665789243397_2_alg».proof.Proof.DenseSpec
import Idealize.ShloMosaic.PureOps.Ideal.Laws

noncomputable section

namespace Cert.RefStages

open Cert.ReferenceIdeal Cert.ReferenceIdeal.Gen Idealize.ShloMosaic Idealize.ShloMosaic.TcCoe Idealize.SL.Sem
open Idealize.ShloMosaic.ValueIdx

/-- A bias vector spread over the nodes reads, at `(r, c)`, its entry `c`. -/
theorem biasMat_apply {F : FTy → Type} [FloatOps F] (b : (⟨S128, .f32⟩ : BufTy).Contents (Elt F)) (r : Fin 100000) (c : Fin 128) :
    biasMat (F := F) b (ix2 r c) = b (ix1 c) :=
  Cert.LibHostBroadcast.vec_along_cols b bcast_S128_S1x128_1 bcast_S1x128_S100000x128_0_1 r c

/-- The zero word spread over the array reads the real 0. -/
theorem zeroMat_apply (i : S100000x128.Idx) :
    broadcastInDim S100000x128 ![] bcast_S_S100000x128 (constant (F := Ideal) S_ .f32 0x00000000#32) i = (0 : EReal) :=
  (Cert.LibHostBroadcast.scalar_to_any (constant (F := Ideal) S_ .f32 0x00000000#32) bcast_S_S100000x128 i).trans
    ((constant_apply _ _).trans Ideal.ofBits_zero_f32)

/-- The host's product of an array over the nodes with a weight matrix, at `(a, c)`: the sum over the features. -/
theorem dot_apply (l : FVec Ideal S100000x128 .f32) (w : FVec Ideal S128x128 .f32) (a : Fin 100000) (c : Fin 128) :
    Host.dotGeneral (F := Ideal) dot_S100000x128_S128x128_S100000x128_1_0_0_1_n_n none l w (ix2 a c)
      = ∑ k : Fin 128, l (ix2 a k) * w (ix2 k c) :=
  Cert.LibPlainDot.dotGeneral_plain 100000 128 128 none l w (ix2 a c)

/-- Row `r` of the two layers is the row-wise specification of row `r` of their input. -/
theorem mlp_apply (y : FVec Ideal S100000x128 .f32) (w1 : FVec Ideal S128x128 .f32) (b1 : FVec Ideal S128 .f32)
    (w2 : FVec Ideal S128x128 .f32) (b2 : FVec Ideal S128 .f32) (r : Fin 100000) (q : Fin 128) :
    mlp (F := Ideal) y w1 b1 w2 b2 (ix2 r q) = Cert.Dense.outAt (fun j => y (ix2 r j)) w1 b1 w2 b2 q := by
  unfold mlp Cert.Dense.outAt Cert.Dense.hiddenAt
  rw [addf_apply, dot_apply, biasMat_apply]
  refine congrArg (· + b2 (ix1 q)) (Finset.sum_congr rfl fun k _ => ?_)
  rw [maximumf_apply, addf_apply, dot_apply, biasMat_apply, zeroMat_apply]

end Cert.RefStages

end
-- ==== Proof.Blocks.lean ====
/-
  From blocks to the array: what the kernel's output array holds after the run.

  The grid has 20 points; point t stages rows 5000·t … 5000·t + 4999 of the aggregate and of the degree-factor column, the
  two weight matrices and the two biases whole, and writes the body's value back to the same rows of the output. Row p of
  the body's value at point t is the two dense layers of row p of the aggregate block scaled by the p-th degree factor of
  the block (`DenseBody.pay_apply`), that is of row 5000·t + p of the reference's scaled aggregate — the region finds the
  reference's aggregate and degree factor in the two staged arrays (`HostSide.V_agg`, `HostSide.V_dis`) — and the
  reference's layers act row by row (`RefStages.mlp_apply`). So point t writes back block t of the reference's result
  `RefStages.out` of the kernel's own arguments; the 20 blocks tile the 100000 rows (row r lies in block r / 5000), so
  the output array ends holding that function everywhere.
-/
import proofs.«160959_j6665789243397_2_alg».proof.Proof.Gen.KernelIdeal.Value
import proofs.«160959_j6665789243397_2_alg».proof.Proof.KernelHost
import proofs.«160959_j6665789243397_2_alg».proof.Proof.DenseKernel
import proofs.«160959_j6665789243397_2_alg».proof.Proof.DenseRef

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The function the output array ends holding: the reference's result of the kernel's own argument arrays. -/
def G (c : Dev nD) : S100000x128.Idx → EReal :=
  Cert.RefStages.out (F := Ideal) (m ((c : Thread nD τ).loc main_arg0)) (m ((c : Thread nD τ).loc main_arg2))
    (m ((c : Thread nD τ).loc main_arg3)) (m ((c : Thread nD τ).loc main_arg4))
    (m ((c : Thread nD τ).loc main_arg5)) (m ((c : Thread nD τ).loc main_arg6))

theorem hz : (![0, 0] : Fin 2 → Nat) = fun _ => 0 := funext fun a => by fin_cases a <;> rfl
theorem hz1 : (![0] : Fin 1 → Nat) = fun _ => 0 := funext fun a => by fin_cases a <;> rfl

/-- The printed index maps, decided over the 20 points: the aggregate, the degree-factor column and the output move with
    the point along the rows; the weights and biases stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem lt20 (t : Fin cfg0.N) : t.val < 20 :=
  lt_of_lt_of_eq t.isLt (show cfg0.N = 20 from N_0)

/-- The row of the array that row `p` of point `t`'s block is. -/
def row (t : Fin cfg0.N) (p : Fin 5000) : Fin 100000 :=
  ⟨t.val * 5000 + p.val, by have := lt20 t; have := p.isLt; omega⟩

/-! ## A block read off an array

Each lemma is stated for ANY contents `X` of the window's array: a read through point `t`'s block is the array at the
block's offset plus the position inside the block. -/

/-- Rows of the aggregate: position `(p, j)` of block `t` is `(row t p, j)` of the array. -/
theorem read_agg (X : S100000x128.Idx → EReal) (t : Fin cfg0.N) (p : Fin 5000) (j : Fin 128) :
    ((cfg0.win 0).blk t).view.read (Elt Ideal) X (ix2 p j) = X (ix2 (row t p) j) := by
  obtain ⟨e0, e1, -⟩ := idx_facts t
  have hemb : ((cfg0.win 0).blk t).view.emb (ix2 p j) = ix2 (row t p) j := by
    funext a; apply Fin.ext
    match a with
    | ⟨0, _⟩ => show win0_0.index t (0 : Fin 2) * 5000 + 1 * p.val = t.val * 5000 + p.val; rw [e0]; omega
    | ⟨1, _⟩ => show win0_0.index t (1 : Fin 2) * 128 + 1 * j.val = j.val; rw [e1]; omega
  show X (((cfg0.win 0).blk t).view.emb (ix2 p j)) = X (ix2 (row t p) j)
  rw [hemb]

/-- Entries of the degree-factor column: position `(p, 0)` of block `t` is `(row t p, 0)` of the array. -/
theorem read_dis (X : S100000x1.Idx → EReal) (t : Fin cfg0.N) (p : Fin 5000) :
    ((cfg0.win 1).blk t).view.read (Elt Ideal) X (ix2 p (0 : Fin 1)) = X (ix2 (row t p) (0 : Fin 1)) := by
  obtain ⟨-, -, e2, e3, -⟩ := idx_facts t
  have hemb : ((cfg0.win 1).blk t).view.emb (ix2 p (0 : Fin 1)) = ix2 (row t p) (0 : Fin 1) := by
    funext a; apply Fin.ext
    match a with
    | ⟨0, _⟩ => show win0_1.index t (0 : Fin 2) * 5000 + 1 * p.val = t.val * 5000 + p.val; rw [e2]; omega
    | ⟨1, _⟩ => show win0_1.index t (1 : Fin 2) * 1 + 1 * 0 = 0; rw [e3]
  show X (((cfg0.win 1).blk t).view.emb (ix2 p (0 : Fin 1))) = X (ix2 (row t p) (0 : Fin 1))
  rw [hemb]

/-- The first weight matrix's one block is the whole array. -/
theorem read_w1 (X : S128x128.Idx → EReal) (t : Fin cfg0.N) (y : S128x128.Idx) :
    ((cfg0.win 2).blk t).view.read (Elt Ideal) X y = X y := by
  obtain ⟨-, -, -, -, e4, e5, -⟩ := idx_facts t
  have hemb : ((cfg0.win 2).blk t).view.emb y = y := by
    funext a; apply Fin.ext
    match a with
    | ⟨0, _⟩ => show win0_2.index t (0 : Fin 2) * 128 + 1 * (y 0).val = (y 0).val; rw [e4]; omega
    | ⟨1, _⟩ => show win0_2.index t (1 : Fin 2) * 128 + 1 * (y 1).val = (y 1).val; rw [e5]; omega
  show X (((cfg0.win 2).blk t).view.emb y) = X y
  rw [hemb]

/-- The first bias's one block is the whole array. -/
theorem read_b1 (X : S128.Idx → EReal) (t : Fin cfg0.N) (y : S128.Idx) :
    ((cfg0.win 3).blk t).view.read (Elt Ideal) X y = X y := by
  obtain ⟨-, -, -, -, -, -, e6, -⟩ := idx_facts t
  have hemb : ((cfg0.win 3).blk t).view.emb y = y := by
    funext a; apply Fin.ext
    match a with
    | ⟨0, _⟩ => show win0_3.index t (0 : Fin 1) * 128 + 1 * (y 0).val = (y 0).val; rw [e6]; omega
  show X (((cfg0.win 3).blk t).view.emb y) = X y
  rw [hemb]

/-- The second weight matrix's one block is the whole array. -/
theorem read_w2 (X : S128x128.Idx → EReal) (t : Fin cfg0.N) (y : S128x128.Idx) :
    ((cfg0.win 4).blk t).view.read (Elt Ideal) X y = X y := by
  obtain ⟨-, -, -, -, -, -, -, e7, e8, -⟩ := idx_facts t
  have hemb : ((cfg0.win 4).blk t).view.emb y = y := by
    funext a; apply Fin.ext
    match a with
    | ⟨0, _⟩ => show win0_4.index t (0 : Fin 2) * 128 + 1 * (y 0).val = (y 0).val; rw [e7]; omega
    | ⟨1, _⟩ => show win0_4.index t (1 : Fin 2) * 128 + 1 * (y 1).val = (y 1).val; rw [e8]; omega
  show X (((cfg0.win 4).blk t).view.emb y) = X y
  rw [hemb]

/-- The second bias's one block is the whole array. -/
theorem read_b2 (X : S128.Idx → EReal) (t : Fin cfg0.N) (y : S128.Idx) :
    ((cfg0.win 5).blk t).view.read (Elt Ideal) X y = X y := by
  obtain ⟨-, -, -, -, -, -, -, -, -, e9, -⟩ := idx_facts t
  have hemb : ((cfg0.win 5).blk t).view.emb y = y := by
    funext a; apply Fin.ext
    match a with
    | ⟨0, _⟩ => show win0_5.index t (0 : Fin 1) * 128 + 1 * (y 0).val = (y 0).val; rw [e9]; omega
  show X (((cfg0.win 5).blk t).view.emb y) = X y
  rw [hemb]

/-- Rows of the output: position `(p, q)` of block `t` is `(row t p, q)` of the array. -/
theorem read_out (X : S100000x128.Idx → EReal) (t : Fin cfg0.N) (p : Fin 5000) (q : Fin 128) :
    ((cfg0.win 6).blk t).view.read (Elt Ideal) X (ix2 p q) = X (ix2 (row t p) q) := by
  obtain ⟨-, -, -, -, -, -, -, -, -, -, e10, e11⟩ := idx_facts t
  have hemb : ((cfg0.win 6).blk t).view.emb (ix2 p q) = ix2 (row t p) q := by
    funext a; apply Fin.ext
    match a with
    | ⟨0, _⟩ => show win0_6.index t (0 : Fin 2) * 5000 + 1 * p.val = t.val * 5000 + p.val; rw [e10]; omega
    | ⟨1, _⟩ => show win0_6.index t (1 : Fin 2) * 128 + 1 * q.val = q.val; rw [e11]; omega
  show X (((cfg0.win 6).blk t).view.emb (ix2 p q)) = X (ix2 (row t p) q)
  rw [hemb]

/-! ## The staged blocks, read off what the region finds -/

/-- Row `p` of the aggregate block at point `t` is row `row t p` of the reference's aggregate. -/
theorem agg_block (c : Dev nD) (t : Fin cfg0.N) (p : Fin 5000) (j : Fin 128) :
    iblk m c 0 t (ix2 p j)
      = Cert.RefStages.agg (F := Ideal) (m ((c : Thread nD τ).loc main_arg0)) (m ((c : Thread nD τ).loc main_arg2)) (ix2 (row t p) j) := by
  have h1 : iblk m c 0 t (ix2 p j) = V m c (Pipeline.arrRef spec0 0) (ix2 (row t p) j) :=
    read_agg (V m c (Pipeline.arrRef spec0 0)) t p j
  have h2 : V m c (Pipeline.arrRef spec0 0)
      = Cert.RefStages.agg (F := Ideal) (m ((c : Thread nD τ).loc main_arg0)) (m ((c : Thread nD τ).loc main_arg2)) :=
    Cert.KernelIdeal.HostSide.V_agg m c
  rw [h1, h2]

/-- Entry `p` of the degree-factor block at point `t` is the reference's degree factor of node `row t p`. -/
theorem dis_block (c : Dev nD) (t : Fin cfg0.N) (p : Fin 5000) :
    iblk m c 1 t (ix2 p (0 : Fin 1))
      = Cert.RefStages.dis (F := Ideal) (m ((c : Thread nD τ).loc main_arg2)) (ix1 (row t p)) := by
  have h1 : iblk m c 1 t (ix2 p (0 : Fin 1)) = V m c (Pipeline.arrRef spec0 1) (ix2 (row t p) (0 : Fin 1)) :=
    read_dis (V m c (Pipeline.arrRef spec0 1)) t p
  have h2 : V m c (Pipeline.arrRef spec0 1)
      = shapeCast S100000x1 (Cert.RefStages.dis (F := Ideal) (m ((c : Thread nD τ).loc main_arg2))) shapeCasts_S100000_S100000x1 :=
    Cert.KernelIdeal.HostSide.V_dis m c
  rw [h1, h2]
  exact Cert.LibColumn.shapeCast_a_a1_apply _ shapeCasts_S100000_S100000x1 (row t p) 0

/-- The first weight matrix is staged whole. -/
theorem w1_block (c : Dev nD) (t : Fin cfg0.N) (y : S128x128.Idx) :
    iblk m c 2 t y = m ((c : Thread nD τ).loc main_arg3) y := by
  have h1 : iblk m c 2 t y = V m c (Pipeline.arrRef spec0 2) y := read_w1 (V m c (Pipeline.arrRef spec0 2)) t y
  have h2 : V m c (Pipeline.arrRef spec0 2) = m ((c : Thread nD τ).loc main_arg3) := V_main_arg3 m c
  rw [h1, h2]

/-- The first bias is staged whole. -/
theorem b1_block (c : Dev nD) (t : Fin cfg0.N) (y : S128.Idx) :
    iblk m c 3 t y = m ((c : Thread nD τ).loc main_arg4) y := by
  have h1 : iblk m c 3 t y = V m c (Pipeline.arrRef spec0 3) y := read_b1 (V m c (Pipeline.arrRef spec0 3)) t y
  have h2 : V m c (Pipeline.arrRef spec0 3) = m ((c : Thread nD τ).loc main_arg4) := V_main_arg4 m c
  rw [h1, h2]

/-- The second weight matrix is staged whole. -/
theorem w2_block (c : Dev nD) (t : Fin cfg0.N) (y : S128x128.Idx) :
    iblk m c 4 t y = m ((c : Thread nD τ).loc main_arg5) y := by
  have h1 : iblk m c 4 t y = V m c (Pipeline.arrRef spec0 4) y := read_w2 (V m c (Pipeline.arrRef spec0 4)) t y
  have h2 : V m c (Pipeline.arrRef spec0 4) = m ((c : Thread nD τ).loc main_arg5) := V_main_arg5 m c
  rw [h1, h2]

/-- The second bias is staged whole. -/
theorem b2_block (c : Dev nD) (t : Fin cfg0.N) (y : S128.Idx) :
    iblk m c 5 t y = m ((c : Thread nD τ).loc main_arg6) y := by
  have h1 : iblk m c 5 t y = V m c (Pipeline.arrRef spec0 5) y := read_b2 (V m c (Pipeline.arrRef spec0 5)) t y
  have h2 : V m c (Pipeline.arrRef spec0 5) = m ((c : Thread nD τ).loc main_arg6) := V_main_arg6 m c
  rw [h1, h2]

/-! ## What a point writes back -/

/-- The scaled row `p` of point `t`'s blocks is row `row t p` of the reference's scaled aggregate. -/
theorem scaled_block (c : Dev nD) (t : Fin cfg0.N) (p : Fin 5000) (j : Fin 128)
    (x0 : Vec Ideal S5000x128 .f32) (x1 : Vec Ideal S5000x1 .f32) (h0 : x0 = iblk m c 0 t) (h1 : x1 = iblk m c 1 t) :
    x0 (ix2 p j) * x1 (ix2 p (0 : Fin 1))
      = Cert.RefStages.scaled (F := Ideal) (m ((c : Thread nD τ).loc main_arg0)) (m ((c : Thread nD τ).loc main_arg2)) (ix2 (row t p) j) := by
  subst h0 h1
  rw [agg_block, dis_block]
  unfold Cert.RefStages.scaled
  rw [mulf_apply, Cert.RefStages.disMat_apply]

/-- Point `t` writes back block `t` of `G`. -/
theorem flushed_eq (c : Dev nD) (t : Fin cfg0.N) :
    (dats m 0 c).flushed 6 t = ((cfg0.win 6).blk t).view.read (Elt Ideal) (G m c) := by
  rw [Cert.KernelIdeal.Value.flushed6]
  unfold out0_6
  rw [View.canon_unit_zero hz]
  simp only [View.ld_unit_zero (S := S5000x128) hz, View.ld_unit_zero (S := S5000x1) hz, View.ld_unit_zero (S := S128x128) hz,
    View.ld_unit_zero (S := S128) hz1]
  funext y
  obtain ⟨p, q, rfl⟩ : ∃ (p : Fin 5000) (q : Fin 128), y = ix2 p q := ⟨y 0, y 1, eq_ix2 y⟩
  rw [read_out (G m c) t p q]
  show k0_pay1 (F := Ideal) (iblk m c 0 t) (iblk m c 1 t) (iblk m c 2 t) (iblk m c 3 t) (iblk m c 4 t) (iblk m c 5 t) (ix2 p q)
      = G m c (ix2 (row t p) q)
  rw [Cert.KernelIdeal.DenseBody.pay_apply (iblk m c 0 t) (iblk m c 1 t) (iblk m c 2 t) (iblk m c 3 t) (iblk m c 4 t) (iblk m c 5 t) p q]
  unfold G Cert.RefStages.out
  rw [Cert.RefStages.mlp_apply]
  have h2 : (iblk m c 2 t : S128x128.Idx → EReal) = m ((c : Thread nD τ).loc main_arg3) := funext (w1_block m c t)
  have h3 : (iblk m c 3 t : S128.Idx → EReal) = m ((c : Thread nD τ).loc main_arg4) := funext (b1_block m c t)
  have h4 : (iblk m c 4 t : S128x128.Idx → EReal) = m ((c : Thread nD τ).loc main_arg5) := funext (w2_block m c t)
  have h5 : (iblk m c 5 t : S128.Idx → EReal) = m ((c : Thread nD τ).loc main_arg6) := funext (b2_block m c t)
  rw [h2, h3, h4, h5]
  exact congrArg (fun r => Cert.Dense.outAt r _ _ _ _ q) (funext fun j => scaled_block m c t p j (iblk m c 0 t) (iblk m c 1 t) rfl rfl)

/-! ## The cover, and the array -/

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v29).slice (win0_6.rect t)).set ↔ _
  rw [View.set_slice_whole, Rect.mem_set_unit]
  exact Iff.rfl

/-- Every row lies in the block of the point `row / 5000`. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 5000 < cfg0.N := by rw [show cfg0.N = 20 from N_0]; omega
  obtain ⟨-, -, -, -, -, -, -, -, -, -, e10, e11⟩ := idx_facts ⟨(i 0).val / 5000, hN⟩
  refine ⟨⟨(i 0).val / 5000, hN⟩, flush0_6 _, ?_⟩
  rw [mem_blk]
  intro a
  match a with
  | ⟨0, _⟩ =>
    show win0_6.index ⟨(i 0).val / 5000, hN⟩ (0 : Fin 2) * 5000 ≤ (i 0).val ∧ (i 0).val < win0_6.index ⟨(i 0).val / 5000, hN⟩ (0 : Fin 2) * 5000 + 5000
    rw [e10]
    show (i 0).val / 5000 * 5000 ≤ (i 0).val ∧ (i 0).val < (i 0).val / 5000 * 5000 + 5000
    omega
  | ⟨1, _⟩ =>
    show win0_6.index ⟨(i 0).val / 5000, hN⟩ (1 : Fin 2) * 128 ≤ (i 1).val ∧ (i 1).val < win0_6.index ⟨(i 0).val / 5000, hN⟩ (1 : Fin 2) * 128 + 128
    rw [e11]
    omega

/-- The output array after the run is `G`. -/
theorem final (c : Dev nD) : (dats m 0 c).arrAt 6 cfg0.N = G m c :=
  (dats m 0 c).arrAt_eq_of_cover 6 (G m c) (fun t _ => flushed_eq m c t) cover

/-! ## The run, read -/

/-- The kernel's run with its output array named: the reference's result of the kernel's arguments, the arguments unchanged. -/
theorem run : θ_run defs (onTc (τ := τ) (main (F := Ideal))) ⟨m, fun _ => 0, ρ⟩ fun r => ∀ c : Dev nD,
      r.2.mem ((c : Thread nD τ).loc main_v29) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Blocks

end
-- ==== Proof.lean ====
/-
  A two-layer network over degree-normalised neighbourhood sums: the tiled kernel against the array program.

  With nodes r < 100000 carrying 128 features x(r, ·), edges t < 1600000 from s(t) to d(t), deg(r) the number of edges into
  r and dis(r) = deg(r)^(-1/2) (0 at a node no edge enters), both programs compute
      out(r, ·) = relu((Σ_{t : d(t) = r} x(s(t), ·) · dis(s(t))) · dis(r) · W1 + b1) · W2 + b2
  and return the edge features untouched.

  They differ in two places. The array program looks the features and the degree factors up at the sources separately and
  multiplies the looked-up arrays; the kernel's host part scales the feature table first and looks the scaled table up.
  Entry by entry these are the same product x(s(t), j) · dis(s(t)), the source s(t) being the same node in both lookups
  (Proof/Messages.lean) — no law of arithmetic is needed, so nothing is asked of the inputs' finiteness. And the array
  program applies the final degree factor and the two dense layers to the whole array, while the kernel applies them to
  blocks of 5000 rows on a grid of 20 points, its matrix products taken on operands narrowed to a 16-bit float format
  (the identity at the ideal values) into a zero accumulator. The layers act row by row (Proof/DenseSpec.lean,
  Proof/DenseRef.lean, Proof/DenseKernel.lean), and the 20 blocks tile the rows (Proof/Blocks.lean), so the kernel's
  output array ends holding the array program's result of the same arguments.

  The array program's run is read back in Proof/RefRun.lean as the composition of its operations' values
  (Proof/RefStages.lean); the kernel's frame and the naming of its output array after the run are the generated modules
  Gen/Kernel/Frame, Gen/KernelIdeal/Frame and Gen/KernelIdeal/Value. The idealization rewrote no operation, so
  `preserves` has nothing to state.
-/
import proofs.«160959_j6665789243397_2_alg».proof.Defs
import proofs.«160959_j6665789243397_2_alg».proof.Proof.Gen.Kernel
import proofs.«160959_j6665789243397_2_alg».proof.Proof.Gen.Kernel.Frame
import proofs.«160959_j6665789243397_2_alg».proof.Proof.Gen.KernelIdeal
import proofs.«160959_j6665789243397_2_alg».proof.Proof.Gen.KernelIdeal.Frame
import proofs.«160959_j6665789243397_2_alg».proof.Proof.Gen.KernelIdeal.Value
import proofs.«160959_j6665789243397_2_alg».proof.Proof.Gen.ReferenceIdeal
import proofs.«160959_j6665789243397_2_alg».proof.Proof.Gen.Pre_finite_inputs
import proofs.«160959_j6665789243397_2_alg».proof.Proof.RefRun
import proofs.«160959_j6665789243397_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The array program runs and leaves its arguments unchanged: its run read back, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories agreeing on the arguments the kernel's output array and the array program's result both end at the array
    program's function of those arguments, and both return the edge features as given. -/
theorem algebraic : Cert.algebraic_KernelIdeal_ReferenceIdeal := by
  intro m ρ m' ρ' _ hagree
  refine ⟨fun c => Cert.KernelIdeal.Blocks.G m c,
    fun c => m ((c.tc : Thread Cert.KernelIdeal.nD Cert.KernelIdeal.τ).loc Cert.KernelIdeal.main_arg1), ?_, ?_⟩
  · exact (θ_run Cert.KernelIdeal.defs _ _).mono (fun r h c => ⟨(h c).1, (h c).2.2.1, (h c).2⟩)
      (Cert.KernelIdeal.Blocks.run m ρ)
  · refine (θ_run Cert.ReferenceIdeal.defs _ _).mono
      (fun r h c => ⟨(h c).1.trans ?_, (h c).2.2.1.trans (hagree c).2.1, (h c).2⟩)
      (Cert.ReferenceIdeal.RefRun.run (F := Ideal) m' ρ')
    rw [(hagree c).1, (hagree c).2.2.1, (hagree c).2.2.2.1, (hagree c).2.2.2.2.1, (hagree c).2.2.2.2.2.1,
      (hagree c).2.2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
